-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048x7 : Shape := ⟨3, ![2048, 2048, 7]⟩
abbrev S2048x2048 : Shape := ⟨2, ![2048, 2048]⟩
abbrev S7x7 : Shape := ⟨2, ![7, 7]⟩
abbrev S_ : Shape := ⟨0, ![]⟩

class Facts : Prop where
  bcast_S_S2048x2048x7 : S_.BroadcastsInDim S2048x2048x7 (![] : Fin 0 → Fin S2048x2048x7.rank)
  reducesTo_S2048x2048x7_S_d0_1_2 : S2048x2048x7.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S7x7 : S_.BroadcastsInDim S7x7 (![] : Fin 0 → Fin S7x7.rank)
  reducesTo_S7x7_S_d0_1 : S7x7.ReducesTo [0, 1] S_

variable [Facts]

def fn {F : FTy → Type} [FloatOps F] (main_arg0 : FVec F S2048x2048x7 .f32) (main_arg1 : FVec F S2048x2048 .f32) (main_arg2 : FVec F S7x7 .f32) : IVec S_ 1 :=
  let main_v0 : FVec F S2048x2048x7 .f32 := Host.absf main_arg0
  let main_cst : FVec F S_ .f32 := constant S_ .f32 0x7F800000#32
  let main_v1 : FVec F S2048x2048x7 .f32 := broadcastInDim S2048x2048x7 ![] bcast_S_S2048x2048x7 main_cst
  let main_v2 : IVec S2048x2048x7 1 := cmpf .olt main_v0 main_v1
  let main_c : IVec S_ 1 := constantI S_ 1 1#1
  let main_v3 : IVec S_ 1 := (fun x v => Host.reduce IntOp.andi x v reducesTo_S2048x2048x7_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S7x7 .f32 := Host.absf main_arg2
  let main_cst_2 : FVec F S_ .f32 := constant S_ .f32 0x7F800000#32
  let main_v10 : FVec F S7x7 .f32 := broadcastInDim S7x7 ![] bcast_S_S7x7 main_cst_2
  let main_v11 : IVec S7x7 1 := cmpf .olt main_v9 main_v10
  let main_c_3 : IVec S_ 1 := constantI S_ 1 1#1
  let main_v12 : IVec S_ 1 := (fun x v => Host.reduce IntOp.andi x v reducesTo_S7x7_S_d0_1 h_S_) main_v11 main_c_3
  let main_v13 : IVec S_ 1 := andi main_v8 main_v12
  main_v13
-- ==== Kernel.lean ====
abbrev S2048x2048x7 : Shape := ⟨3, ![2048, 2048, 7]⟩
abbrev S2048x2048 : Shape := ⟨2, ![2048, 2048]⟩
abbrev S7x7 : Shape := ⟨2, ![7, 7]⟩
abbrev S64x128x7 : Shape := ⟨3, ![64, 128, 7]⟩
abbrev S64x128 : Shape := ⟨2, ![64, 128]⟩
abbrev S8192x7 : Shape := ⟨2, ![8192, 7]⟩
abbrev S64x128x1 : Shape := ⟨3, ![64, 128, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048x7, .f32⟩
  | .hbm, ⟨1, _⟩ => ⟨S2048x2048, .f32⟩
  | .hbm, ⟨2, _⟩ => ⟨S7x7, .f32⟩
  | .hbm, ⟨3, _⟩ => ⟨S2048x2048x7, .f32⟩
  | .local _ .vmem, ⟨0, _⟩ => ⟨S64x128x7, .f32⟩
  | .local _ .vmem, ⟨1, _⟩ => ⟨S64x128x7, .f32⟩
  | .local _ .vmem, ⟨2, _⟩ => ⟨S64x128, .f32⟩
  | .local _ .vmem, ⟨3, _⟩ => ⟨S64x128, .f32⟩
  | .local _ .vmem, ⟨4, _⟩ => ⟨S7x7, .f32⟩
  | .local _ .vmem, ⟨5, _⟩ => ⟨S64x128x7, .f32⟩
  | .local _ .vmem, ⟨6, _⟩ => ⟨S64x128x7, .f32⟩
  | _, _ => ⟨S2048x2048x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x128x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x128x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S64x128x7_S64x128x7_0_0_0 : ∀ a, (![0, 0, 0] : Fin 3 → Nat) a + S64x128x7.size a ≤ S64x128x7.size a
  h_S64x128x7 : 0 < S64x128x7.numel
  bitsLt_bf16_f32 : FTy.bits .bf16 < FTy.bits .f32
  shapeCasts_S64x128x7_S8192x7 : S64x128x7.ShapeCasts S8192x7
  inb_S7x7_S7x7_0_0 : ∀ a, (![0, 0] : Fin 2 → Nat) a + S7x7.size a ≤ S7x7.size a
  h_S7x7 : 0 < S7x7.numel
  shapeCasts_S8192x7_S64x128x7 : S8192x7.ShapeCasts S64x128x7
  inb_S64x128_S64x128_0_0 : ∀ a, (![0, 0] : Fin 2 → Nat) a + S64x128.size a ≤ S64x128.size a
  h_S64x128 : 0 < S64x128.numel
  shapeCasts_S64x128_S64x128x1 : S64x128.ShapeCasts S64x128x1
  broadcasts_S64x128x1_S64x128x7 : S64x128x1.Broadcasts S64x128x7
  dot_S8192x7_S7x7_S8192x7_1_0_0_1_n_n_wf : DotDims.WF S8192x7 S7x7 S8192x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x7.size a ≤ S2048x2048x7.size a
  hwx0_0 : ∀ i : grid0.Coords, EltTy.bits .f32 = 32 ∨ (Rect.block (s := S2048x2048x7) S64x128x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S2048x2048.size a
  hwx0_1 : ∀ i : grid0.Coords, EltTy.bits .f32 = 32 ∨ (Rect.block (s := S2048x2048) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x7.size a ≤ S7x7.size a
  hwx0_2 : ∀ i : grid0.Coords, EltTy.bits .f32 = 32 ∨ (Rect.block (s := S7x7) S7x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x7.size a ≤ S2048x2048x7.size a
  hwx0_3 : ∀ i : grid0.Coords, EltTy.bits .f32 = 32 ∨ (Rect.block (s := S2048x2048x7) S64x128x7.size (cc0_transform_3 i) (hinb0_3 i)).WholeWords (EltTy.packing .f32)

variable [Facts₀]

def dot_S8192x7_S7x7_S8192x7_1_0_0_1_n_n : DotDims S8192x7 S7x7 S8192x7 where
  lhsContracting := [1]
  rhsContracting := [0]
  lhsNonContracting := [0]
  rhsNonContracting := [1]
  lhsBatch := []
  rhsBatch := []
  wf := dot_S8192x7_S7x7_S8192x7_1_0_0_1_n_n_wf

abbrev win0_0 : Pipeline.Window sig grid0 :=
  Pipeline.Window.ofSpec (Memref.whole main_arg0) S64x128x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S7x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x2048x7 : Shape := ⟨3, ![2048, 2048, 7]⟩
abbrev S2048x2048 : Shape := ⟨2, ![2048, 2048]⟩
abbrev S7x7 : Shape := ⟨2, ![7, 7]⟩
abbrev S2048x2048x1 : Shape := ⟨3, ![2048, 2048, 1]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048x7, .f32⟩
  | .hbm, ⟨1, _⟩ => ⟨S2048x2048, .f32⟩
  | .hbm, ⟨2, _⟩ => ⟨S7x7, .f32⟩
  | .hbm, ⟨3, _⟩ => ⟨S2048x2048x1, .f32⟩
  | .hbm, ⟨4, _⟩ => ⟨S2048x2048x7, .f32⟩
  | .hbm, ⟨5, _⟩ => ⟨S2048x2048x7, .f32⟩
  | .hbm, ⟨6, _⟩ => ⟨S2048x2048x7, .f32⟩
  | _, _ => ⟨S2048x2048x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048x2048_S2048x2048x1_0_1 : S2048x2048.BroadcastsInDim S2048x2048x1 (![0, 1] : Fin 2 → Fin S2048x2048x1.rank)
  bcast_S2048x2048x1_S2048x2048x7_0_1_2 : S2048x2048x1.BroadcastsInDim S2048x2048x7 (![0, 1, 2] : Fin 3 → Fin S2048x2048x7.rank)
  dot_S2048x2048x7_S7x7_S2048x2048x7_2_0_01_1_n_n_wf : DotDims.WF S2048x2048x7 S7x7 S2048x2048x7 [2] [0] [0, 1] [1] [] []

variable [Facts₀]

def dot_S2048x2048x7_S7x7_S2048x2048x7_2_0_01_1_n_n : DotDims S2048x2048x7 S7x7 S2048x2048x7 where
  lhsContracting := [2]
  rhsContracting := [0]
  lhsNonContracting := [0, 1]
  rhsNonContracting := [1]
  lhsBatch := []
  rhsBatch := []
  wf := dot_S2048x2048x7_S7x7_S2048x2048x7_2_0_01_1_n_n_wf

class Facts : Prop extends Facts₀ where

variable [Facts]
-- ==== Proof.Spec.lean ====
/-
  The function both programs compute, stated once and away from either program.

  For arrays `x` of extents [A, B, 7], `d` of extents [A, B] and `W` of extents [7, 7] over the extended reals,
  the result at (i, j, g) is

      d[i, j] · Σ_{k < 7} x[i, j, k] · W[k, g]

  — each length-7 row of `x` multiplied into `W`, then scaled by the matching entry of `d`. The scale stands to the
  LEFT of the sum and is never moved inside it, so nothing here distributes a product over a sum: the identity between the
  two programs holds at every extended real, the infinities included.

  The same expression is read at two pairs of extents: A = B = 2048 for the whole arrays, and A = 64, B = 128 for one
  block of them. Entry (i, j, g) reads `x` and `d` only at (i, j) and `W` everywhere, which is why the function of a
  64 × 128 block of `x` and `d` (with all of `W`) is the same block of the function of the whole arrays.
-/
import Idealize.ShloMosaic.PureOps.Ideal
import Idealize.ShloMosaic.Lib.ValueIdx

noncomputable section

open scoped BigOperators

namespace Cert.Spec

open Idealize.ShloMosaic Idealize.ShloMosaic.ValueIdx

/-- `d[i, j] · Σ_k x[i, j, k] · W[k, g]` at the index (i, j, g), for arrays of leading extents `A`, `B`. -/
def scaledProduct (A B : Nat) (x : (⟨3, ![A, B, 7]⟩ : Shape).Idx → EReal) (d : (⟨2, ![A, B]⟩ : Shape).Idx → EReal)
    (W : (⟨2, ![7, 7]⟩ : Shape).Idx → EReal) : (⟨3, ![A, B, 7]⟩ : Shape).Idx → EReal :=
  fun i => d (ix2 (n0 := A) (n1 := B) (i 0) (i 1))
    * ∑ k : Fin 7, x (ix3 (n0 := A) (n1 := B) (n2 := 7) (i 0) (i 1) k) * W (ix2 (n0 := 7) (n1 := 7) k (i 2))

/-- The function at an index given by its coordinates. -/
theorem scaledProduct_ix3 (A B : Nat) (x : (⟨3, ![A, B, 7]⟩ : Shape).Idx → EReal) (d : (⟨2, ![A, B]⟩ : Shape).Idx → EReal)
    (W : (⟨2, ![7, 7]⟩ : Shape).Idx → EReal) (a : Fin A) (b : Fin B) (g : Fin 7) :
    scaledProduct A B x d W (ix3 a b g) = d (ix2 a b) * ∑ k : Fin 7, x (ix3 a b k) * W (ix2 k g) := rfl

end Cert.Spec

end
-- ==== Proof.BlockValue.lean ====
/-
  What the kernel body stores, read at an index of its 64 × 128 × 7 block.

  The body takes a block `x` of extents [64, 128, 7], a block `d` of extents [64, 128] and the whole of `W`, and stores

      broadcast(d) · unflatten( flatten(x) ⋅ W )

  where `flatten` lays the 64 × 128 leading positions out as 8192 rows (position (a, b) becomes row a·128 + b, the
  row-major position), `⋅` is the matrix product of the 8192 × 7 rows with `W` accumulated from zero, and `unflatten` is
  the inverse re-layout. Changes of float format are the identity over the extended reals.

  Read at (a, b, g):
    * `unflatten` looks at row a·128 + b, column g, of the product, because (a, b, g) and (a·128 + b, g) have the same
      row-major position (a·128 + b)·7 + g;
    * the product there is `0 + Σ_k flatten(x)[a·128 + b, k] · W[k, g]`, and `0 + s = s` for every extended real `s`;
    * `flatten(x)[a·128 + b, k]` is `x[a, b, k]`, again by equal row-major positions;
    * the broadcast of `d` (first to [64, 128, 1], then along the last axis) is `d[a, b]`.
  Hence the stored value is `d[a, b] · Σ_k x[a, b, k] · W[k, g]`: the scaled product at the block's extents.
-/
import proofs.«103857_j62191126446676_1_alg».proof.Proof.Gen.KernelIdeal.Skeleton
import proofs.«103857_j62191126446676_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The matrix product's operand indices

The product contracts axis 1 of its 8192 × 7 left operand against axis 0 of `W`. At the output position (r, g) and
contraction step k the left operand is read at (r, k) and the right one at (k, g). -/

/-- The left operand's row is the output's row. -/
theorem left_row (j : S8192x7.Idx) (q : dot_S8192x7_S7x7_S8192x7_1_0_0_1_n_n.contr.Idx) :
    (dot_S8192x7_S7x7_S8192x7_1_0_0_1_n_n.lhsIdx j q 0).val = (j 0).val := by
  unfold DotDims.lhsIdx
  rw [dif_neg (show ¬(0 : Fin S8192x7.rank) ∈ dot_S8192x7_S7x7_S8192x7_1_0_0_1_n_n.lhsBatch by decide),
    dif_pos (show (0 : Fin S8192x7.rank) ∈ dot_S8192x7_S7x7_S8192x7_1_0_0_1_n_n.lhsNonContracting by decide)]
  rfl

/-- The left operand's column is the contraction step. -/
theorem left_step (j : S8192x7.Idx) (q : dot_S8192x7_S7x7_S8192x7_1_0_0_1_n_n.contr.Idx) :
    (dot_S8192x7_S7x7_S8192x7_1_0_0_1_n_n.lhsIdx j q 1).val = (q ⟨0, by decide⟩).val :=
  dot_S8192x7_S7x7_S8192x7_1_0_0_1_n_n.lhsIdx_val_of_single rfl j q

/-- The right operand's row is the contraction step. -/
theorem right_step (j : S8192x7.Idx) (q : dot_S8192x7_S7x7_S8192x7_1_0_0_1_n_n.contr.Idx) :
    (dot_S8192x7_S7x7_S8192x7_1_0_0_1_n_n.rhsIdx j q 0).val = (q ⟨0, by decide⟩).val :=
  dot_S8192x7_S7x7_S8192x7_1_0_0_1_n_n.rhsIdx_val_of_single rfl j q

/-- The right operand's column is the output's column. -/
theorem right_col (j : S8192x7.Idx) (q : dot_S8192x7_S7x7_S8192x7_1_0_0_1_n_n.contr.Idx) :
    (dot_S8192x7_S7x7_S8192x7_1_0_0_1_n_n.rhsIdx j q 1).val = (j 1).val := by
  unfold DotDims.rhsIdx
  rw [dif_neg (show ¬(1 : Fin S7x7.rank) ∈ dot_S8192x7_S7x7_S8192x7_1_0_0_1_n_n.rhsBatch by decide),
    dif_pos (show (1 : Fin S7x7.rank) ∈ dot_S8192x7_S7x7_S8192x7_1_0_0_1_n_n.rhsNonContracting by decide)]
  rfl

/-- The 8192 × 7 by 7 × 7 product accumulated from zero, at row `j 0` and column `j 1`: the sum over the seven
    contraction steps, the zero accumulator gone because `0 + s = s` on the extended reals. -/
theorem product_at (l : FVec Ideal S8192x7 .bf16) (r : FVec Ideal S7x7 .bf16) (j : S8192x7.Idx) :
    matmul (F := Ideal) dot_S8192x7_S7x7_S8192x7_1_0_0_1_n_n none l r (constant (F := Ideal) S8192x7 .f32 0x00000000#32) j
      = ∑ k : Fin 7, l (ix2 (n0 := 8192) (n1 := 7) (j 0) k) * r (ix2 (n0 := 7) (n1 := 7) k (j 1)) := by
  refine (Ideal.matmul_constant_zero_apply (φ₁ := .bf16) (φ₂ := .bf16) dot_S8192x7_S7x7_S8192x7_1_0_0_1_n_n none l r j).trans ?_
  rw [← Equiv.sum_comp (contrEquiv1 dot_S8192x7_S7x7_S8192x7_1_0_0_1_n_n 7 rfl rfl).symm]
  refine Finset.sum_congr rfl fun k _ => ?_
  have hk := contrEquiv1_symm_val dot_S8192x7_S7x7_S8192x7_1_0_0_1_n_n 7 rfl rfl k
  have el : dot_S8192x7_S7x7_S8192x7_1_0_0_1_n_n.lhsIdx j ((contrEquiv1 dot_S8192x7_S7x7_S8192x7_1_0_0_1_n_n 7 rfl rfl).symm k)
      = ix2 (n0 := 8192) (n1 := 7) (j 0) k := funext fun a => Fin.ext (by
    match a with
    | ⟨0, _⟩ => exact left_row _ _
    | ⟨1, _⟩ => exact (left_step _ _).trans hk)
  have er : dot_S8192x7_S7x7_S8192x7_1_0_0_1_n_n.rhsIdx j ((contrEquiv1 dot_S8192x7_S7x7_S8192x7_1_0_0_1_n_n 7 rfl rfl).symm k)
      = ix2 (n0 := 7) (n1 := 7) k (j 1) := funext fun a => Fin.ext (by
    match a with
    | ⟨0, _⟩ => exact (right_step _ _).trans hk
    | ⟨1, _⟩ => exact right_col _ _)
  rw [el, er]

/-! ## The three factors of the stored value at (a, b, g) -/

/-- The scale: `d` re-laid to [64, 128, 1] and broadcast along the last axis is `d[a, b]` at (a, b, g). -/
theorem scale_at (d : FVec Ideal S64x128 .f32) (h1 : S64x128.ShapeCasts S64x128x1) (h2 : S64x128x1.Broadcasts S64x128x7)
    (a : Fin 64) (b : Fin 128) (g : Fin 7) :
    broadcastTo S64x128x7 (shapeCast S64x128x1 d h1) h2 (ix3 a b g) = d (ix2 a b) := by
  refine (broadcastTo_apply _ h2 (ix3 a b g) (ix3 (n0 := 64) (n1 := 128) (n2 := 1) a b ⟨0, Nat.one_pos⟩) fun ax => ?_).trans ?_
  · match ax with
    | ⟨0, _⟩ => show a.val = if (64 : Nat) = 1 then 0 else a.val; rw [if_neg (by decide)]
    | ⟨1, _⟩ => show b.val = if (128 : Nat) = 1 then 0 else b.val; rw [if_neg (by decide)]
    | ⟨2, _⟩ => show 0 = if (1 : Nat) = 1 then 0 else g.val; rw [if_pos rfl]
  · refine shapeCast_apply d h1 _ (ix2 a b) ?_
    rw [Shape.rowMajor_val_two, Shape.rowMajor_val_three]
    show a.val * 128 + b.val = (a.val * 128 + b.val) * 1 + 0
    omega

/-- The product: flatten, multiply into zero, unflatten, read at (a, b, g), is `Σ_k x[a, b, k] · W[k, g]`. -/
theorem product_read (x : FVec Ideal S64x128x7 .f32) (W : FVec Ideal S7x7 .f32) (hb : FTy.bits .bf16 < FTy.bits .f32)
    (h1 : S64x128x7.ShapeCasts S8192x7) (h2 : S8192x7.ShapeCasts S64x128x7) (a : Fin 64) (b : Fin 128) (g : Fin 7) :
    shapeCast S64x128x7 (matmul (F := Ideal) dot_S8192x7_S7x7_S8192x7_1_0_0_1_n_n none (shapeCast S8192x7 (truncf .bf16 x hb) h1)
        (truncf .bf16 W hb) (constant (F := Ideal) S8192x7 .f32 0x00000000#32)) h2 (ix3 a b g)
      = ∑ k : Fin 7, x (ix3 a b k) * W (ix2 k g) := by
  have ha : a.val < 64 := a.isLt
  have hb' : b.val < 128 := b.isLt
  refine (shapeCast_apply _ h2 (ix3 a b g) (ix2 (n0 := 8192) (n1 := 7) ⟨a.val * 128 + b.val, by omega⟩ g) ?_).trans ?_
  · rw [Shape.rowMajor_val_two, Shape.rowMajor_val_three]
    show (a.val * 128 + b.val) * 7 + g.val = (a.val * 128 + b.val) * 7 + g.val
    rfl
  · refine (product_at _ _ _).trans ?_
    refine Finset.sum_congr rfl fun k _ => ?_
    refine congrArg₂ (· * ·) ?_ rfl
    refine shapeCast_apply _ h1 _ (ix3 a b k) ?_
    rw [Shape.rowMajor_val_three, Shape.rowMajor_val_two]
    show (a.val * 128 + b.val) * 7 + k.val = (a.val * 128 + b.val) * 7 + k.val
    rfl

/-! ## The stored value -/

/-- The body's stored value, as a function of the three blocks it loads, is the scaled product at the block's extents. -/
theorem payload_eq (x : Vec Ideal S64x128x7 .f32) (W : Vec Ideal S7x7 .f32) (d : Vec Ideal S64x128 .f32) :
    k0_pay1 (F := Ideal) x W d = Cert.Spec.scaledProduct 64 128 x d W := by
  funext y
  obtain ⟨a, b, g, rfl⟩ : ∃ (a : Fin 64) (b : Fin 128) (g : Fin 7), y = ix3 a b g := ⟨y 0, y 1, y 2, eq_ix3 y⟩
  rw [Cert.Spec.scaledProduct_ix3]
  unfold k0_pay1
  refine (mulf_apply _ _ _).trans ?_
  exact congrArg₂ (· * ·) (scale_at d _ _ a b g) (product_read x W _ _ _ a b g)

end Cert.KernelIdeal.BlockValue

end
-- ==== Proof.ArrayValue.lean ====
/-
  From blocks to the whole array: after the run the kernel's result array is the scaled product of its arguments.

  The grid has 32 × 16 = 512 points. Point `t` works on block (t / 16, t % 16): rows 64·(t / 16) … 64·(t / 16) + 63 and
  columns 128·(t % 16) … 128·(t % 16) + 127 of the leading two axes, all seven entries of the last axis. The blocks of
  `x` and of the result sit at that position, the block of `d` at the same position of its two axes, and `W` is taken
  whole at every point.

  Two facts give the array:
    * what point `t` writes back is block `t` of the scaled product of the WHOLE arrays. The body stores the scaled product
      of the blocks it loaded; entry (a, b, g) of that reads the loaded `x` and `d` at (a, b) only, and position (a, b) of
      block (I, J) is position (64·I + a, 128·J + b) of the array — for the `x` block, the `d` block and the result
      block alike;
    * every index (i, j, g) of the array lies in the block of exactly the point (i / 64)·16 + j / 128, so the 512
      written blocks cover the array and nothing of its earlier contents is left.
-/
import proofs.«103857_j62191126446676_1_alg».proof.Proof.Gen.KernelIdeal.Value
import proofs.«103857_j62191126446676_1_alg».proof.Proof.BlockValue

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The scaled product of the three argument arrays as the region finds them on core `c`. -/
abbrev arrayResult (c : Dev nD) : S2048x2048x7.Idx → EReal :=
  Cert.Spec.scaledProduct 2048 2048 (V m c main_arg0) (V m c main_arg1) (V m c main_arg2)

/-! ## Where each window's block sits at a grid point -/

/-- At point `t` the result's block is (t / 16, t % 16, 0); the block of `x` is the same; the block of `d` is
    (t / 16, t % 16); the block of `W` is (0, 0), the whole matrix. Checked point by point over the 512 points. -/
theorem block_positions : ∀ t : Fin cfg0.N,
    win0_3.index t (0 : Fin 3) = t.val / 16 ∧ win0_3.index t (1 : Fin 3) = t.val % 16 ∧ win0_3.index t (2 : Fin 3) = 0
    ∧ win0_0.index t (0 : Fin 3) = t.val / 16 ∧ win0_0.index t (1 : Fin 3) = t.val % 16 ∧ win0_0.index t (2 : Fin 3) = 0
    ∧ win0_1.index t (0 : Fin 2) = t.val / 16 ∧ win0_1.index t (1 : Fin 2) = t.val % 16
    ∧ win0_2.index t (0 : Fin 2) = 0 ∧ win0_2.index t (1 : Fin 2) = 0 :=
  (by decide +kernel : ∀ t : Fin grid0.N, _)

/-! ## The loaded blocks read through the result's block -/

/-- Entry (a, b) of the `d` block at point `t` is `d` at the array position of entry (a, b, ·) of the result's block. -/
theorem scale_block (c : Dev nD) (t : Fin cfg0.N) (y : ((cfg0.win 3).xblock (cfg0.grid.coords t)).Idx) :
    iblk m c 1 t (ix2 (n0 := 64) (n1 := 128) (y 0) (y 1))
      = V m c main_arg1 (ix2 (n0 := 2048) (n1 := 2048) (((cfg0.win 3).blk t).view.emb y 0) (((cfg0.win 3).blk t).view.emb y 1)) := by
  obtain ⟨r0, r1, r2, x0, x1, x2, d0, d1, w0, w1⟩ := block_positions t
  show V m c main_arg1 (((cfg0.win 1).blk t).view.emb (ix2 (n0 := 64) (n1 := 128) (y 0) (y 1))) = _
  refine congrArg (V m c main_arg1) (funext fun a => Fin.ext ?_)
  match a with
  | ⟨0, _⟩ => show win0_1.index t (0 : Fin 2) * 64 + 1 * (y 0).val = win0_3.index t (0 : Fin 3) * 64 + 1 * (y 0).val; omega
  | ⟨1, _⟩ => show win0_1.index t (1 : Fin 2) * 128 + 1 * (y 1).val = win0_3.index t (1 : Fin 3) * 128 + 1 * (y 1).val; omega

/-- Entry (a, b, k) of the `x` block at point `t` is `x` at the array position of entry (a, b, ·) of the result's
    block, with last coordinate `k`. -/
theorem row_block (c : Dev nD) (t : Fin cfg0.N) (y : ((cfg0.win 3).xblock (cfg0.grid.coords t)).Idx) (k : Fin 7) :
    iblk m c 0 t (ix3 (n0 := 64) (n1 := 128) (n2 := 7) (y 0) (y 1) k)
      = V m c main_arg0 (ix3 (n0 := 2048) (n1 := 2048) (n2 := 7) (((cfg0.win 3).blk t).view.emb y 0) (((cfg0.win 3).blk t).view.emb y 1) k) := by
  obtain ⟨r0, r1, r2, x0, x1, x2, d0, d1, w0, w1⟩ := block_positions t
  show V m c main_arg0 (((cfg0.win 0).blk t).view.emb (ix3 (n0 := 64) (n1 := 128) (n2 := 7) (y 0) (y 1) k)) = _
  refine congrArg (V m c main_arg0) (funext fun a => Fin.ext ?_)
  match a with
  | ⟨0, _⟩ => show win0_0.index t (0 : Fin 3) * 64 + 1 * (y 0).val = win0_3.index t (0 : Fin 3) * 64 + 1 * (y 0).val; omega
  | ⟨1, _⟩ => show win0_0.index t (1 : Fin 3) * 128 + 1 * (y 1).val = win0_3.index t (1 : Fin 3) * 128 + 1 * (y 1).val; omega
  | ⟨2, _⟩ => show win0_0.index t (2 : Fin 3) * 7 + 1 * k.val = k.val; omega

/-- Entry (k, g) of the `W` block is `W` at (k, g') where g' is the last array coordinate of entry (·, ·, g) of the
    result's block: the last axis is not cut, so g' = g. -/
theorem matrix_block (c : Dev nD) (t : Fin cfg0.N) (y : ((cfg0.win 3).xblock (cfg0.grid.coords t)).Idx) (k : Fin 7) :
    iblk m c 2 t (ix2 (n0 := 7) (n1 := 7) k (y 2))
      = V m c main_arg2 (ix2 (n0 := 7) (n1 := 7) k (((cfg0.win 3).blk t).view.emb y 2)) := by
  obtain ⟨r0, r1, r2, x0, x1, x2, d0, d1, w0, w1⟩ := block_positions t
  show V m c main_arg2 (((cfg0.win 2).blk t).view.emb (ix2 (n0 := 7) (n1 := 7) k (y 2))) = _
  refine congrArg (V m c main_arg2) (funext fun a => Fin.ext ?_)
  match a with
  | ⟨0, _⟩ => show win0_2.index t (0 : Fin 2) * 7 + 1 * k.val = k.val; omega
  | ⟨1, _⟩ => show win0_2.index t (1 : Fin 2) * 7 + 1 * (y 2).val = win0_3.index t (2 : Fin 3) * 7 + 1 * (y 2).val; omega

/-! ## What a point writes back -/

/-- Point `t` writes back block `t` of the scaled product of the whole argument arrays. -/
theorem flushed_eq (c : Dev nD) (t : Fin cfg0.N) :
    (dats m 0 c).flushed 3 t = ((cfg0.win 3).blk t).view.read (Elt Ideal) (arrayResult m c) := by
  rw [Cert.KernelIdeal.Value.flushed3]
  unfold out0_3
  rw [View.canon_unit_zero zeros3]
  simp only [View.ld_unit_zero (S := S64x128x7) zeros3, View.ld_unit_zero (S := S7x7) zeros2, View.ld_unit_zero (S := S64x128) zeros2]
  funext y
  show k0_pay1 (F := Ideal) (iblk m c 0 t) (iblk m c 2 t) (iblk m c 1 t) y = arrayResult m c (((cfg0.win 3).blk t).view.emb y)
  refine (congrFun (Cert.KernelIdeal.BlockValue.payload_eq (iblk m c 0 t) (iblk m c 2 t) (iblk m c 1 t)) y).trans ?_
  exact congrArg₂ (· * ·) (scale_block m c t y)
    (Finset.sum_congr rfl fun k _ => congrArg₂ (· * ·) (row_block m c t y k) (matrix_block m c t y k))

/-! ## The blocks cover the array -/

/-- An index lies in point `t`'s block iff each coordinate lies in the block's range on its axis. -/
theorem mem_block (t : Fin cfg0.N) (i : S2048x2048x7.Idx) :
    i ∈ ((cfg0.win 3).blk t).view.set ↔ ∀ a : Fin 3, win0_3.index t a * S64x128x7.size a ≤ (i a).val
      ∧ (i a).val < win0_3.index t a * S64x128x7.size a + S64x128x7.size a := by
  show i ∈ ((View.whole main_v0).slice (win0_3.rect t)).set ↔ _
  rw [View.set_slice_whole, Rect.mem_set_unit]
  exact Iff.rfl

/-- Index (i, j, g) lies in the block of the point (i / 64)·16 + j / 128, and that point writes back. -/
theorem covered (i : S2048x2048x7.Idx) :
    ∃ t : Fin cfg0.N, (cfg0.win 3).flush t = true ∧ i ∈ ((cfg0.win 3).blk t).view.set := by
  have h0 : (i 0).val < 2048 := (i 0).isLt
  have h1 : (i 1).val < 2048 := (i 1).isLt
  have h2 : (i 2).val < 7 := (i 2).isLt
  obtain ⟨t, ht⟩ : ∃ t : Fin cfg0.N, t.val = (i 0).val / 64 * 16 + (i 1).val / 128 :=
    ⟨⟨(i 0).val / 64 * 16 + (i 1).val / 128, by show _ < 512; omega⟩, rfl⟩
  obtain ⟨r0, r1, r2, -⟩ := block_positions t
  refine ⟨t, flush0_3 t, ?_⟩
  rw [mem_block]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 128 ≤ (i 1).val ∧ (i 1).val < win0_3.index t (1 : Fin 3) * 128 + 128; omega
  | ⟨2, _⟩ => show win0_3.index t (2 : Fin 3) * 7 ≤ (i 2).val ∧ (i 2).val < win0_3.index t (2 : Fin 3) * 7 + 7; omega

/-! ## The array after the run -/

/-- After all 512 write-backs the result array is the scaled product of the argument arrays. -/
theorem final (c : Dev nD) : (dats m 0 c).arrAt 3 cfg0.N = arrayResult m c :=
  (dats m 0 c).arrAt_eq_of_cover 3 (arrayResult m c) (fun t _ => flushed_eq m c t) covered

/-- Every weakly fair execution of the idealized kernel terminates with its result at the scaled product of the arguments
    as launched, the arguments unchanged. -/
theorem run : θ_run defs (onTc (τ := τ) (main (F := Ideal))) ⟨m, fun _ => 0, ρ⟩ fun r => ∀ c : Dev nD,
      r.2.mem ((c : Thread nD τ).loc main_v0)
        = Cert.Spec.scaledProduct 2048 2048 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference computes the scaled product.

  Its four operations, read at an index (i, j, g) of the result:
    * the two broadcasts carry `d` first to extents [2048, 2048, 1] and then to [2048, 2048, 7]; read at (i, j, g) the
      outer one looks at (i, j, 0) of the inner one, which looks at (i, j) of `d`: the entry is `d[i, j]`;
    * the contraction of the last axis of `x` against the first axis of `W` is, over the extended reals, the plain sum
      `Σ_k x[i, j, k] · W[k, g]`;
    * the final multiplication puts the broadcast `d` on the left of that sum.
  So the result is `d[i, j] · Σ_k x[i, j, k] · W[k, g]`, which is `Cert.Spec.scaledProduct 2048 2048 x d W` at (i, j, g):
  no algebra is needed beyond recognising the three index functions.
-/
import proofs.«103857_j62191126446676_1_alg».proof.Proof.Gen.ReferenceIdeal.Read
import proofs.«103857_j62191126446676_1_alg».proof.Proof.Spec

noncomputable section

open scoped BigOperators

namespace Cert.ReferenceIdeal.RefValue

open Cert.ReferenceIdeal Cert.ReferenceIdeal.Read Idealize.ShloMosaic Idealize.ShloMosaic.ValueIdx

/-- Through both broadcasts, the entry (i, j, g) reads `d` at (i, j). -/
theorem scale_index (i : S2048x2048x7.Idx) :
    idx_main_v0 (idx_main_v2 i) = ix2 (n0 := 2048) (n1 := 2048) (i 0) (i 1) :=
  funext fun a => Fin.ext (by match a with | ⟨0, _⟩ => rfl | ⟨1, _⟩ => rfl)

/-- The contraction's left factor at step `k` is `x` at (i, j, k). -/
theorem left_index (i : S2048x2048x7.Idx) (k : Fin 7) :
    lidx_main_v1 i k = ix3 (n0 := 2048) (n1 := 2048) (n2 := 7) (i 0) (i 1) k :=
  funext fun a => Fin.ext (by match a with | ⟨0, _⟩ => rfl | ⟨1, _⟩ => rfl | ⟨2, _⟩ => rfl)

/-- The contraction's right factor at step `k` is `W` at (k, g). -/
theorem right_index (i : S2048x2048x7.Idx) (k : Fin 7) :
    ridx_main_v1 i k = ix2 (n0 := 7) (n1 := 7) k (i 2) :=
  funext fun a => Fin.ext (by match a with | ⟨0, _⟩ => rfl | ⟨1, _⟩ => rfl)

/-- The reference's last stage, over the extended reals, is the scaled product of its three arguments. -/
theorem result_eq (x : (⟨S2048x2048x7, .f32⟩ : BufTy).Contents (Elt Ideal)) (d : (⟨S2048x2048, .f32⟩ : BufTy).Contents (Elt Ideal))
    (W : (⟨S7x7, .f32⟩ : BufTy).Contents (Elt Ideal)) :
    val_main_v3 (F := Ideal) x d W = Cert.Spec.scaledProduct 2048 2048 x d W := by
  funext i
  rw [val_main_v3_apply, val_main_v2_apply, val_main_v0_apply, val_main_v1_apply]
  simp only [scale_index, left_index, right_index]
  rfl

end Cert.ReferenceIdeal.RefValue

end
-- ==== Proof.lean ====
/-
  The kernel and its reference compute the same array over the extended reals.

  For `x` of extents [2048, 2048, 7], `d` of extents [2048, 2048] and `W` of extents [7, 7] both programs end with

      out[i, j, g] = d[i, j] · Σ_{k < 7} x[i, j, k] · W[k, g]            (`Cert.Spec.scaledProduct`, Proof/Spec.lean).

  The reference does it in four whole-array operations (Proof/RefValue.lean reads them at an index). The kernel cuts the
  leading two axes into 32 × 16 blocks of 64 × 128 positions; at each block it flattens the 64 × 128 rows of `x` to 8192
  rows, multiplies them into `W` from a zero accumulator, restores the layout and scales by the block of `d`
  (Proof/BlockValue.lean: that is the scaled product of the blocks); the 512 written blocks are the blocks of the scaled
  product of the whole arrays and cover the result (Proof/ArrayValue.lean).

  No law of arithmetic separates the two sides beyond `0 + s = s`: both put `d[i, j]` to the left of the same sum of
  seven products, in the same order. The equality therefore holds for every extended-real input, and the finiteness of the
  inputs, though assumed by the claim, is never used.

  The idealization rewrote no operation of the kernel, so there is nothing to preserve (`preserves` is `True`). The three
  termination-and-unchanged-arguments claims are the generated frame runs of the two kernel programs, and the reference's
  generated run with its result dropped.
-/
import proofs.«103857_j62191126446676_1_alg».proof.Defs
import proofs.«103857_j62191126446676_1_alg».proof.Proof.Gen.Kernel
import proofs.«103857_j62191126446676_1_alg».proof.Proof.Gen.Kernel.Frame
import proofs.«103857_j62191126446676_1_alg».proof.Proof.Gen.KernelIdeal
import proofs.«103857_j62191126446676_1_alg».proof.Proof.Gen.KernelIdeal.Frame
import proofs.«103857_j62191126446676_1_alg».proof.Proof.Gen.KernelIdeal.Value
import proofs.«103857_j62191126446676_1_alg».proof.Proof.Gen.ReferenceIdeal
import proofs.«103857_j62191126446676_1_alg».proof.Proof.Gen.ReferenceIdeal.Run
import proofs.«103857_j62191126446676_1_alg».proof.Proof.Gen.ReferenceIdeal.Read
import proofs.«103857_j62191126446676_1_alg».proof.Proof.Gen.Pre_finite_inputs
import proofs.«103857_j62191126446676_1_alg».proof.Proof.ArrayValue
import proofs.«103857_j62191126446676_1_alg».proof.Proof.RefValue

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on `x`, `d` and `W`, the idealized kernel ends with the scaled product of its arguments
    (Proof/ArrayValue.lean) and the reference with the scaled product of its own (Proof/RefValue.lean): the same array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
